-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x3968 : Shape := ⟨2, ![4096, 3968]⟩
abbrev S4096x128 : Shape := ⟨2, ![4096, 128]⟩
abbrev S4096x1 : Shape := ⟨2, ![4096, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x3968 : S_.BroadcastsInDim S4096x3968 (![] : Fin 0 → Fin S4096x3968.rank)
  reducesTo_S4096x3968_S_d0_1 : S4096x3968.ReducesTo [0, 1] S_
  bcast_S_S4096x128 : S_.BroadcastsInDim S4096x128 (![] : Fin 0 → Fin S4096x128.rank)
  reducesTo_S4096x128_S_d0_1 : S4096x128.ReducesTo [0, 1] S_
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x1 1) : IVec S_ 1 :=
  let main_c_5 : IVec S_ 1 := constantI S_ 1 1#1
  let main_v17 : IVec S_ 1 := (fun x v => Host.reduce IntOp.andi x v reducesTo_S4096x1_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S4096x3968 .f32) (main_arg2 : FVec F S4096x128 .f32) (main_arg3 : FVec F S4096x1 .f32) (main_arg4 : FVec F S4096 .f32) (main_arg5 : IVec S4096 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x3968 .f32 := Host.absf main_arg1
  let main_cst_0 : FVec F S_ .f32 := constant S_ .f32 0x7F800000#32
  let main_v5 : FVec F S4096x3968 .f32 := broadcastInDim S4096x3968 ![] bcast_S_S4096x3968 main_cst_0
  let main_v6 : IVec S4096x3968 1 := cmpf .olt main_v4 main_v5
  let main_c_1 : IVec S_ 1 := constantI S_ 1 1#1
  let main_v7 : IVec S_ 1 := (fun x v => Host.reduce IntOp.andi x v reducesTo_S4096x3968_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096x1 .f32 := Host.absf main_arg3
  let main_cst_4 : FVec F S_ .f32 := constant S_ .f32 0x7F800000#32
  let main_v15 : FVec F S4096x1 .f32 := broadcastInDim S4096x1 ![] bcast_S_S4096x1 main_cst_4
  let main_v16 : IVec S4096x1 1 := cmpf .olt main_v14 main_v15
  fn_part1 (F := F) main_arg4 main_v13 main_v16
-- ==== Kernel.lean ====
abbrev S4x2048x4096 : Shape := ⟨3, ![4, 2048, 4096]⟩
abbrev S4096x3968 : Shape := ⟨2, ![4096, 3968]⟩
abbrev S4096x128 : Shape := ⟨2, ![4096, 128]⟩
abbrev S4096x1 : Shape := ⟨2, ![4096, 1]⟩
abbrev S4096 : Shape := ⟨1, ![4096]⟩
abbrev S4096x4096 : Shape := ⟨2, ![4096, 4096]⟩
abbrev S_ : Shape := ⟨0, ![]⟩
abbrev S8192x4096 : Shape := ⟨2, ![8192, 4096]⟩
abbrev S1x4096 : Shape := ⟨2, ![1, 4096]⟩
abbrev S512x4096 : Shape := ⟨2, ![512, 4096]⟩
abbrev S256x4096 : Shape := ⟨2, ![256, 4096]⟩
abbrev S1x256 : Shape := ⟨2, ![1, 256]⟩
abbrev S512x256 : Shape := ⟨2, ![512, 256]⟩

abbrev nBuf : Space → Nat
  | .hbm => 23
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096x3968, .f32⟩
  | .hbm, ⟨2, _⟩ => ⟨S4096x128, .f32⟩
  | .hbm, ⟨3, _⟩ => ⟨S4096x1, .f32⟩
  | .hbm, ⟨4, _⟩ => ⟨S4096, .f32⟩
  | .hbm, ⟨5, _⟩ => ⟨S4096, .i32⟩
  | .hbm, ⟨6, _⟩ => ⟨S4096x3968, .f32⟩
  | .hbm, ⟨7, _⟩ => ⟨S4096x3968, .f32⟩
  | .hbm, ⟨8, _⟩ => ⟨S4096x4096, .f32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S4096x1, .i32⟩
  | .hbm, ⟨17, _⟩ => ⟨S4096x4096, .f32⟩
  | .hbm, ⟨18, _⟩ => ⟨S4096x4096, .bf16⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S256x4096, .bf16⟩
  | .local _ .vmem, ⟨3, _⟩ => ⟨S256x4096, .bf16⟩
  | .local _ .vmem, ⟨4, _⟩ => ⟨S1x256, .f32⟩
  | .local _ .vmem, ⟨5, _⟩ => ⟨S1x256, .f32⟩
  | .local _ .vmem, ⟨6, _⟩ => ⟨S512x256, .f32⟩
  | .local _ .vmem, ⟨7, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S4096x1_S4096x3968_0_1 : S4096x1.BroadcastsInDim S4096x3968 (![0, 1] : Fin 2 → Fin S4096x3968.rank)
  concatenates_S4096x3968_S4096x128_S4096x4096_d1 : Shape.Concatenates [S4096x3968, S4096x128] S4096x4096 1
  bcast_S_S4096 : S_.BroadcastsInDim S4096 (![] : Fin 0 → Fin S4096.rank)
  bcast_S4096_S4096x1_0 : S4096.BroadcastsInDim S4096x1 (![0] : Fin 1 → Fin S4096x1.rank)
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S8192x4096_S4x2048x4096 : S8192x4096.ShapeCasts S4x2048x4096
  gather_S4096x4096_S4096x1_S4096x4096_0_1_n_n_1_1_40961_wf : GatherDims.WF S4096x4096 S4096x1 S4096x4096 [0] [1] [] [1] [] 1 ![4096, 1]
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S8192x4096.size a
  hwx0_3 : ∀ i : grid0.Coords, EltTy.bits .f32 = 32 ∨ (Rect.block (s := S8192x4096) S512x256.size (cc0_transform_3 i) (hinb0_3 i)).WholeWords (EltTy.packing .f32)

variable [Facts₀]

def gather_S4096x4096_S4096x1_S4096x4096_0_1_n_n_1_1_40961 : GatherDims S4096x4096 S4096x1 S4096x4096 where
  offsetDims := [0]
  collapsedSliceDims := [1]
  operandBatchingDims := []
  startIndicesBatchingDims := []
  startIndexMap := [1]
  indexVectorDim := 1
  sliceSizes := ![4096, 1]
  wf := gather_S4096x4096_S4096x1_S4096x4096_0_1_n_n_1_1_40961_wf
def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v11) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x3968 : Shape := ⟨2, ![4096, 3968]⟩
abbrev S4096x128 : Shape := ⟨2, ![4096, 128]⟩
abbrev S4096x1 : Shape := ⟨2, ![4096, 1]⟩
abbrev S4096 : Shape := ⟨1, ![4096]⟩
abbrev S4096x4096 : Shape := ⟨2, ![4096, 4096]⟩
abbrev S_ : Shape := ⟨0, ![]⟩
abbrev S1x1x4096 : Shape := ⟨3, ![1, 1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x3968, .f32⟩
  | .hbm, ⟨2, _⟩ => ⟨S4096x128, .f32⟩
  | .hbm, ⟨3, _⟩ => ⟨S4096x1, .f32⟩
  | .hbm, ⟨4, _⟩ => ⟨S4096, .f32⟩
  | .hbm, ⟨5, _⟩ => ⟨S4096, .i32⟩
  | .hbm, ⟨6, _⟩ => ⟨S4096x3968, .f32⟩
  | .hbm, ⟨7, _⟩ => ⟨S4096x3968, .f32⟩
  | .hbm, ⟨8, _⟩ => ⟨S4096x4096, .f32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S4096x1, .i32⟩
  | .hbm, ⟨17, _⟩ => ⟨S4096x4096, .f32⟩
  | .hbm, ⟨18, _⟩ => ⟨S4x2048x4096, .f32⟩
  | .hbm, ⟨19, _⟩ => ⟨S1x1x4096, .f32⟩
  | .hbm, ⟨20, _⟩ => ⟨S4x2048x4096, .f32⟩
  | .hbm, ⟨21, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S4096x1_S4096x3968_0_1 : S4096x1.BroadcastsInDim S4096x3968 (![0, 1] : Fin 2 → Fin S4096x3968.rank)
  concatenates_S4096x3968_S4096x128_S4096x4096_d1 : Shape.Concatenates [S4096x3968, S4096x128] S4096x4096 1
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S4096x4096_S4096x1_S4096x4096_0_1_n_n_1_1_40961_wf : GatherDims.WF S4096x4096 S4096x1 S4096x4096 [0] [1] [] [1] [] 1 ![4096, 1]
  dot_S4x2048x4096_S4096x4096_S4x2048x4096_2_1_01_0_n_n_wf : DotDims.WF S4x2048x4096 S4096x4096 S4x2048x4096 [2] [1] [0, 1] [0] [] []

variable [Facts₀]

def gather_S4096x4096_S4096x1_S4096x4096_0_1_n_n_1_1_40961 : GatherDims S4096x4096 S4096x1 S4096x4096 where
  offsetDims := [0]
  collapsedSliceDims := [1]
  operandBatchingDims := []
  startIndicesBatchingDims := []
  startIndexMap := [1]
  indexVectorDim := 1
  sliceSizes := ![4096, 1]
  wf := gather_S4096x4096_S4096x1_S4096x4096_0_1_n_n_1_1_40961_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Affine.lean ====
/-
  The mathematics of the layer, with no program in sight.

  The layer multiplies every activation row by the transposed weight matrix and adds the bias:
      out[n, s, o] = Σ_k x[n, s, k] · W[o, k] + b[o]            (the batched form)
  The kernel works on the activations flattened to rows r = 2048·n + s,
      flat[r, o]   = Σ_k X[r, k] · W[o, k] + B[0, o]            (the flat form)
  with X the activations reshaped to [8192, 4096] and B the bias reshaped to [1, 4096], and reshapes the
  result back. Both reshapes keep row-major positions, so the two forms agree entry by entry: row r of X is
  row (n, s) of x, and entry (0, o) of B is entry o of b. No law of arithmetic is used, only the
  re-indexing, so the statement holds on all extended reals, the infinities included.
-/
import Idealize.ShloMosaic.PureOps.Ideal
import Idealize.ShloMosaic.Lib.ValueIdx
import Idealize.ShloMosaic.Lib.ValueLayout
import Idealize.ShloMosaic.Lib.Pipeline.Value

noncomputable section

namespace Cert.QLinear

open Idealize.ShloMosaic Idealize.ShloMosaic.ValueIdx

/-- One entry of the flat form: row `r` of the activations against row `o` of the weights, plus the bias at `o`. -/
def flatAt (X : (⟨2, ![8192, 4096]⟩ : Shape).Idx → EReal) (W : (⟨2, ![4096, 4096]⟩ : Shape).Idx → EReal)
    (B : (⟨2, ![1, 4096]⟩ : Shape).Idx → EReal) (r : Fin 8192) (o : Fin 4096) : EReal :=
  (∑ k : Fin 4096, X (ix2 r k) * W (ix2 o k)) + B (ix2 (0 : Fin 1) o)

/-- The flat form as an array over [8192, 4096]. -/
def flat (X : (⟨2, ![8192, 4096]⟩ : Shape).Idx → EReal) (W : (⟨2, ![4096, 4096]⟩ : Shape).Idx → EReal)
    (B : (⟨2, ![1, 4096]⟩ : Shape).Idx → EReal) : (⟨2, ![8192, 4096]⟩ : Shape).Idx → EReal :=
  fun j => flatAt X W B (j 0) (j 1)

/-- One entry of the batched form: row `(n, s)` of the activations against row `o` of the weights, plus the bias at `o`. -/
def batchedAt (x : (⟨3, ![4, 2048, 4096]⟩ : Shape).Idx → EReal) (W : (⟨2, ![4096, 4096]⟩ : Shape).Idx → EReal)
    (b : (⟨1, ![4096]⟩ : Shape).Idx → EReal) (n : Fin 4) (s : Fin 2048) (o : Fin 4096) : EReal :=
  (∑ k : Fin 4096, x (ix3 n s k) * W (ix2 o k)) + b (ix1 o)

/-- The batched form as an array over [4, 2048, 4096]. -/
def batched (x : (⟨3, ![4, 2048, 4096]⟩ : Shape).Idx → EReal) (W : (⟨2, ![4096, 4096]⟩ : Shape).Idx → EReal)
    (b : (⟨1, ![4096]⟩ : Shape).Idx → EReal) : (⟨3, ![4, 2048, 4096]⟩ : Shape).Idx → EReal :=
  fun i => batchedAt x W b (i 0) (i 1) (i 2)

/-- The activations flattened to rows: row `2048·n + s` at column `k` is entry `(n, s, k)`. -/
theorem flatten_apply (x : (⟨3, ![4, 2048, 4096]⟩ : Shape).Idx → EReal)
    (h : (⟨3, ![4, 2048, 4096]⟩ : Shape).ShapeCasts ⟨2, ![8192, 4096]⟩)
    (n : Fin 4) (s : Fin 2048) (k : Fin 4096) (r : Fin 8192) (hr : r.val = n.val * 2048 + s.val) :
    shapeCast ⟨2, ![8192, 4096]⟩ x h (ix2 r k) = x (ix3 n s k) :=
  shapeCast_apply x h _ _ (by
    rw [Shape.rowMajor_val_two, Shape.rowMajor_val_three]
    show (n.val * 2048 + s.val) * 4096 + k.val = r.val * 4096 + k.val
    rw [hr])

/-- The flat result reshaped back: entry `(n, s, o)` is row `2048·n + s` at column `o`. -/
theorem unflatten_apply (Y : (⟨2, ![8192, 4096]⟩ : Shape).Idx → EReal)
    (h : (⟨2, ![8192, 4096]⟩ : Shape).ShapeCasts ⟨3, ![4, 2048, 4096]⟩)
    (n : Fin 4) (s : Fin 2048) (o : Fin 4096) (r : Fin 8192) (hr : r.val = n.val * 2048 + s.val) :
    shapeCast ⟨3, ![4, 2048, 4096]⟩ Y h (ix3 n s o) = Y (ix2 r o) :=
  shapeCast_apply Y h _ _ (by
    rw [Shape.rowMajor_val_two, Shape.rowMajor_val_three]
    show r.val * 4096 + o.val = (n.val * 2048 + s.val) * 4096 + o.val
    rw [hr])

/-- The flat form of the flattened activations, reshaped back, is the batched form. -/
theorem unflatten_flat (x : (⟨3, ![4, 2048, 4096]⟩ : Shape).Idx → EReal) (W : (⟨2, ![4096, 4096]⟩ : Shape).Idx → EReal)
    (b : (⟨1, ![4096]⟩ : Shape).Idx → EReal)
    (h1 : (⟨3, ![4, 2048, 4096]⟩ : Shape).ShapeCasts ⟨2, ![8192, 4096]⟩)
    (h2 : (⟨1, ![4096]⟩ : Shape).ShapeCasts ⟨2, ![1, 4096]⟩)
    (h3 : (⟨2, ![8192, 4096]⟩ : Shape).ShapeCasts ⟨3, ![4, 2048, 4096]⟩) :
    shapeCast ⟨3, ![4, 2048, 4096]⟩
        (flat (shapeCast ⟨2, ![8192, 4096]⟩ x h1) W (shapeCast ⟨2, ![1, 4096]⟩ b h2)) h3
      = batched x W b := by
  funext i
  obtain ⟨n, s, o, rfl⟩ : ∃ (n : Fin 4) (s : Fin 2048) (o : Fin 4096), i = ix3 n s o := ⟨i 0, i 1, i 2, eq_ix3 i⟩
  have hlt : n.val * 2048 + s.val < 8192 := by have := n.isLt; have := s.isLt; omega
  rw [unflatten_apply _ h3 n s o ⟨n.val * 2048 + s.val, hlt⟩ rfl]
  show flatAt _ W _ ⟨n.val * 2048 + s.val, hlt⟩ o = batchedAt x W b n s o
  unfold flatAt batchedAt
  rw [shapeCast_a_1a_apply b h2 (0 : Fin 1) o]
  refine congrArg (· + b (ix1 o)) (Finset.sum_congr rfl fun k _ => ?_)
  rw [flatten_apply x h1 n s k ⟨n.val * 2048 + s.val, hlt⟩ rfl]

end Cert.QLinear

end
-- ==== Proof.Tile.lean ====
/-
  One tile of the kernel's body, entry by entry.

  At a grid point the body holds a tile of 512 activation rows (all 4096 columns), a tile of 256 weight
  rows (all 4096 columns) and the matching 256 bias entries. It rounds the activations for the matrix
  unit (no change on exact values), multiplies the activation tile by the transposed weight tile into a
  zero accumulator, and adds the bias row to every row. So entry (p, q) of what it stores is
      Σ_k a[p, k] · w[q, k] + bias[0, q].
-/
import proofs.«120158_j50414326120584_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.QLinear

open Idealize.ShloMosaic Idealize.ShloMosaic.ValueIdx
open Cert.KernelIdeal Cert.KernelIdeal.Gen

/-- The first coordinate of the left operand's index is the output row. -/
theorem lhs_row (i : S512x256.Idx) (c : dot_S512x4096_S256x4096_S512x256_1_1_0_0_n_n.contr.Idx) :
    (dot_S512x4096_S256x4096_S512x256_1_1_0_0_n_n.lhsIdx i c 0).val = (i 0).val := by
  unfold DotDims.lhsIdx
  rw [dif_neg (show ¬(0 : Fin S512x4096.rank) ∈ dot_S512x4096_S256x4096_S512x256_1_1_0_0_n_n.lhsBatch by decide),
    dif_pos (show (0 : Fin S512x4096.rank) ∈ dot_S512x4096_S256x4096_S512x256_1_1_0_0_n_n.lhsNonContracting by decide)]
  rfl
/-- Its second coordinate is the contracted one. -/
theorem lhs_col (i : S512x256.Idx) (c : dot_S512x4096_S256x4096_S512x256_1_1_0_0_n_n.contr.Idx) :
    (dot_S512x4096_S256x4096_S512x256_1_1_0_0_n_n.lhsIdx i c 1).val = (c ⟨0, by decide⟩).val :=
  dot_S512x4096_S256x4096_S512x256_1_1_0_0_n_n.lhsIdx_val_of_single rfl i c
/-- The first coordinate of the right operand's index is the output column: the weights are used transposed. -/
theorem rhs_row (i : S512x256.Idx) (c : dot_S512x4096_S256x4096_S512x256_1_1_0_0_n_n.contr.Idx) :
    (dot_S512x4096_S256x4096_S512x256_1_1_0_0_n_n.rhsIdx i c 0).val = (i 1).val := by
  unfold DotDims.rhsIdx
  rw [dif_neg (show ¬(0 : Fin S256x4096.rank) ∈ dot_S512x4096_S256x4096_S512x256_1_1_0_0_n_n.rhsBatch by decide),
    dif_pos (show (0 : Fin S256x4096.rank) ∈ dot_S512x4096_S256x4096_S512x256_1_1_0_0_n_n.rhsNonContracting by decide)]
  rfl
/-- Its second coordinate is the contracted one. -/
theorem rhs_col (i : S512x256.Idx) (c : dot_S512x4096_S256x4096_S512x256_1_1_0_0_n_n.contr.Idx) :
    (dot_S512x4096_S256x4096_S512x256_1_1_0_0_n_n.rhsIdx i c 1).val = (c ⟨0, by decide⟩).val :=
  dot_S512x4096_S256x4096_S512x256_1_1_0_0_n_n.rhsIdx_val_of_single rfl i c

/-- The matrix product of the two tiles at entry (p, q): activation row `p` against weight row `q`
    (both operands are contracted along their second axis). -/
theorem tile_product (a : FVec Ideal S512x4096 .bf16) (w : FVec Ideal S256x4096 .bf16) (p : Fin 512) (q : Fin 256) :
    matmul (F := Ideal) dot_S512x4096_S256x4096_S512x256_1_1_0_0_n_n none a w (constant S512x256 .f32 0x00000000#32) (ix2 p q)
      = ∑ k : Fin 4096, a (ix2 p k) * w (ix2 q k) := by
  simp only [matmul]
  rw [Ideal.matmul_constant_zero_apply,
    ← Equiv.sum_comp (contrEquiv1 dot_S512x4096_S256x4096_S512x256_1_1_0_0_n_n 4096 rfl rfl).symm]
  refine Finset.sum_congr rfl fun k _ => ?_
  have hk := contrEquiv1_symm_val dot_S512x4096_S256x4096_S512x256_1_1_0_0_n_n 4096 rfl rfl k
  have el : dot_S512x4096_S256x4096_S512x256_1_1_0_0_n_n.lhsIdx (ix2 p q)
      ((contrEquiv1 dot_S512x4096_S256x4096_S512x256_1_1_0_0_n_n 4096 rfl rfl).symm k) = ix2 p k :=
    funext fun ax => Fin.ext (by
      match ax with
      | ⟨0, _⟩ => exact lhs_row _ _
      | ⟨1, _⟩ => exact (lhs_col _ _).trans hk)
  have er : dot_S512x4096_S256x4096_S512x256_1_1_0_0_n_n.rhsIdx (ix2 p q)
      ((contrEquiv1 dot_S512x4096_S256x4096_S512x256_1_1_0_0_n_n 4096 rfl rfl).symm k) = ix2 q k :=
    funext fun ax => Fin.ext (by
      match ax with
      | ⟨0, _⟩ => exact rhs_row _ _
      | ⟨1, _⟩ => exact (rhs_col _ _).trans hk)
  rw [el, er]

/-- What the body stores, at entry (p, q) of its 512 × 256 tile. -/
theorem tile_apply (a : FVec Ideal S512x4096 .f32) (w : FVec Ideal S256x4096 .bf16) (bias : FVec Ideal S1x256 .f32)
    (p : Fin 512) (q : Fin 256) :
    k0_pay1 (F := Ideal) a w bias (ix2 p q)
      = (∑ k : Fin 4096, a (ix2 p k) * w (ix2 q k)) + bias (ix2 (0 : Fin 1) q) := by
  unfold k0_pay1
  rw [shapeCast_self, shapeCast_self, shapeCast_self, addf_apply, tile_product,
    broadcastTo_1b_ab_apply]
  rfl

end Cert.QLinear

end
-- ==== Proof.Blocks.lean ====
/-
  From the kernel's tiles to its whole result, as flat rows.

  The grid has 16 × 16 points. Point (i, j) works on activation rows 512·i … 512·i + 511, weight rows
  256·j … 256·j + 255 and the bias entries of those same 256 columns, and writes back the 512 × 256 tile
  of the result at rows 512·i …, columns 256·j …. Entry (p, q) of that tile is the flat form
      Σ_k X[512·i + p, k] · W[256·j + q, k] + B[0, 256·j + q]
  at row 512·i + p and column 256·j + q, so every tile is a block of ONE array, the flat form of the
  arrays the grid starts from; the 256 tiles cover all 8192 × 4096 entries (the tile holding (r, o) is
  that of point (r / 512, o / 256)), hence after the last point the result array is the flat form.
-/
import proofs.«120158_j50414326120584_2_alg».proof.Proof.Gen.KernelIdeal.Frame
import proofs.«120158_j50414326120584_2_alg».proof.Proof.Affine
import proofs.«120158_j50414326120584_2_alg».proof.Proof.Tile

noncomputable section

namespace Cert.QLinear

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem zero_offsets : (![0, 0] : Fin 2 → Nat) = fun _ => 0 := funext fun a => by fin_cases a <;> rfl

/-- A tile's entry is the flat form's entry, for any tiles that are the blocks (i0, ·), (i1, ·), (·, i1) of
    three arrays: stated over plain arrays and numbers, with no grid in it. -/
theorem tile_entry (X : (⟨2, ![8192, 4096]⟩ : Shape).Idx → EReal) (W : (⟨2, ![4096, 4096]⟩ : Shape).Idx → EReal)
    (B : (⟨2, ![1, 4096]⟩ : Shape).Idx → EReal)
    (a : FVec Ideal S512x4096 .f32) (w : FVec Ideal S256x4096 .bf16) (bias : FVec Ideal S1x256 .f32) (i0 i1 : Nat)
    (ha : ∀ (p : Fin 512) (k : Fin 4096) (r : Fin 8192), r.val = i0 * 512 + p.val → a (ix2 p k) = X (ix2 r k))
    (hw : ∀ (q : Fin 256) (k : Fin 4096) (o : Fin 4096), o.val = i1 * 256 + q.val → w (ix2 q k) = W (ix2 o k))
    (hb : ∀ (q : Fin 256) (o : Fin 4096), o.val = i1 * 256 + q.val → bias (ix2 (0 : Fin 1) q) = B (ix2 (0 : Fin 1) o))
    (p : Fin 512) (q : Fin 256) (r : Fin 8192) (o : Fin 4096) (hr : r.val = i0 * 512 + p.val) (ho : o.val = i1 * 256 + q.val) :
    k0_pay1 (F := Ideal) a w bias (ix2 p q) = flat X W B (ix2 r o) := by
  rw [tile_apply]
  show _ = flatAt X W B r o
  unfold flatAt
  rw [hb q o ho]
  refine congrArg (· + B (ix2 (0 : Fin 1) o)) (Finset.sum_congr rfl fun k _ => ?_)
  rw [ha p k r hr, hw q k o ho]

/-- The printed index maps over the 256 points: point `t` is (t / 16, t % 16); the activations move with the
    first coordinate, the weights and the bias with the second. -/
theorem index_maps : ∀ t : Fin cfg0.N,
    win0_3.index t (0 : Fin 2) = t.val / 16 ∧ win0_3.index t (1 : Fin 2) = t.val % 16
    ∧ win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = 0 ∧ win0_2.index t (1 : Fin 2) = t.val % 16 :=
  (by decide +kernel : ∀ t : Fin grid0.N, _)

/-- WHAT POINT `t` WRITES BACK is block `t` of the flat form of the arrays the grid starts from. -/
theorem flushed_eq (c : Dev nD) (t : Fin cfg0.N) :
    (dats m 0 c).flushed 3 t
      = ((cfg0.win 3).blk t).view.read (Elt Ideal) (flat (V m c main_v11) (V m c main_v10) (V m c main_v12)) := by
  show (cfg0.win 3).cut (grid0.coords t) ((dats m 0 c).after 3 t) = _
  rw [after0_3]
  unfold out0_3
  rw [View.canon_unit_zero zero_offsets]
  simp only [View.ld_unit_zero (S := S512x4096) zero_offsets, View.ld_unit_zero (S := S256x4096) zero_offsets,
    View.ld_unit_zero (S := S1x256) zero_offsets]
  obtain ⟨e30, e31, e00, e01, e10, e11, e20, e21⟩ := index_maps t
  have ht : t.val < 256 := Nat.lt_of_lt_of_eq t.isLt N_0
  funext y
  obtain ⟨p, q, rfl⟩ : ∃ (p : Fin 512) (q : Fin 256), y = ix2 p q := ⟨y 0, y 1, eq_ix2 y⟩
  have hp : p.val < 512 := p.isLt
  have hq : q.val < 256 := q.isLt
  show k0_pay1 (F := Ideal) (iblk m c 0 t) (iblk m c 1 t) (iblk m c 2 t) (ix2 p q)
    = flat (V m c main_v11) (V m c main_v10) (V m c main_v12) (((cfg0.win 3).blk t).view.emb (ix2 p q))
  have hout : ((cfg0.win 3).blk t).view.emb (ix2 p q)
      = ix2 (⟨t.val / 16 * 512 + p.val, by omega⟩ : Fin 8192) (⟨t.val % 16 * 256 + q.val, by omega⟩ : Fin 4096) := by
    funext ax; apply Fin.ext
    match ax with
    | ⟨0, _⟩ => show win0_3.index t (0 : Fin 2) * 512 + 1 * p.val = t.val / 16 * 512 + p.val; rw [e30]; omega
    | ⟨1, _⟩ => show win0_3.index t (1 : Fin 2) * 256 + 1 * q.val = t.val % 16 * 256 + q.val; rw [e31]; omega
  rw [hout]
  refine tile_entry (V m c main_v11) (V m c main_v10) (V m c main_v12) (iblk m c 0 t) (iblk m c 1 t) (iblk m c 2 t)
    (t.val / 16) (t.val % 16) ?_ ?_ ?_ p q _ _ rfl rfl
  · intro p k r hr
    have h : ((cfg0.win 0).blk t).view.emb (ix2 p k) = ix2 r k := by
      funext ax; apply Fin.ext
      match ax with
      | ⟨0, _⟩ => show win0_0.index t (0 : Fin 2) * 512 + 1 * p.val = r.val; rw [e00, hr]; omega
      | ⟨1, _⟩ => show win0_0.index t (1 : Fin 2) * 4096 + 1 * k.val = k.val; rw [e01]; omega
    show V m c main_v11 (((cfg0.win 0).blk t).view.emb (ix2 p k)) = V m c main_v11 (ix2 r k)
    rw [h]
  · intro q k o ho
    have h : ((cfg0.win 1).blk t).view.emb (ix2 q k) = ix2 o k := by
      funext ax; apply Fin.ext
      match ax with
      | ⟨0, _⟩ => show win0_1.index t (0 : Fin 2) * 256 + 1 * q.val = o.val; rw [e10, ho]; omega
      | ⟨1, _⟩ => show win0_1.index t (1 : Fin 2) * 4096 + 1 * k.val = k.val; rw [e11]; omega
    show V m c main_v10 (((cfg0.win 1).blk t).view.emb (ix2 q k)) = V m c main_v10 (ix2 o k)
    rw [h]
  · intro q o ho
    have h : ((cfg0.win 2).blk t).view.emb (ix2 (0 : Fin 1) q) = ix2 (0 : Fin 1) o := by
      funext ax; apply Fin.ext
      match ax with
      | ⟨0, _⟩ => show win0_2.index t (0 : Fin 2) * 1 + 1 * 0 = 0; rw [e20]
      | ⟨1, _⟩ => show win0_2.index t (1 : Fin 2) * 256 + 1 * q.val = o.val; rw [e21, ho]; omega
    show V m c main_v12 (((cfg0.win 2).blk t).view.emb (ix2 (0 : Fin 1) q)) = V m c main_v12 (ix2 (0 : Fin 1) o)
    rw [h]

/-- An index of the result array is in point `t`'s block iff each coordinate is in the block's range on its axis. -/
theorem mem_blk (t : Fin cfg0.N) (i : S8192x4096.Idx) :
    i ∈ ((cfg0.win 3).blk t).view.set ↔ ∀ a : Fin 2, win0_3.index t a * S512x256.size a ≤ (i a).val
      ∧ (i a).val < win0_3.index t a * S512x256.size a + S512x256.size a := by
  show i ∈ ((View.whole main_v13).slice (win0_3.rect t)).set ↔ _
  rw [View.set_slice_whole, Rect.mem_set_unit]
  exact Iff.rfl

/-- Every entry (r, o) of the result lies in the tile of point (r / 512, o / 256). -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 256 := N_0
  let t : Fin cfg0.N := ⟨(i 0).val / 512 * 16 + (i 1).val / 256, by rw [hN]; omega⟩
  obtain ⟨e30, e31, -⟩ := index_maps t
  have tv : t.val = (i 0).val / 512 * 16 + (i 1).val / 256 := rfl
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    rw [e30, tv]; omega
  | ⟨1, _⟩ =>
    show win0_3.index t (1 : Fin 2) * 256 ≤ (i 1).val ∧ (i 1).val < win0_3.index t (1 : Fin 2) * 256 + 256
    rw [e31, tv]; omega

/-- THE RESULT ARRAY after the last point: the flat form of the arrays the grid starts from. -/
theorem final (c : Dev nD) :
    (dats m 0 c).arrAt 3 cfg0.N = flat (V m c main_v11) (V m c main_v10) (V m c main_v12) :=
  (dats m 0 c).arrAt_eq_of_cover 3 (flat (V m c main_v11) (V m c main_v10) (V m c main_v12))
    (fun t _ => flushed_eq m c t) covered

end Cert.QLinear

end
-- ==== Proof.Weights.lean ====
/-
  The weight matrix both programs multiply by.

  The stored weights are 3968 integer-coded columns, scaled row by row (row o by its own scale), joined
  on the right with 128 full-precision columns, and then the 4096 columns are put in their original order
  by a table of column numbers (a negative number counts from the end). Both programs build this matrix
  with the same chain of array operations before they multiply; nothing below ever opens the chain —
  whatever matrix it yields, the two programs multiply by the same one.
-/
import proofs.«120158_j50414326120584_2_alg».proof.Proof.Gen.KernelIdeal
import Idealize.ShloMosaic.PureOps.Ideal

noncomputable section

namespace Cert.QLinear

open Idealize.ShloMosaic
open Cert.KernelIdeal Cert.KernelIdeal.Gen

/-- The dequantized weights with their columns in the original order, as the chain of array operations
    that builds them from the coded weights `q`, the full-precision columns `fp`, the row scales `scale`
    and the table of column numbers `cols`. -/
def weights (q : FVec Ideal S4096x3968 .f32) (fp : FVec Ideal S4096x128 .f32) (scale : FVec Ideal S4096x1 .f32)
    (cols : IVec S4096 32) : FVec Ideal S4096x4096 .f32 :=
  Host.gather gather_S4096x4096_S4096x1_S4096x4096_0_1_n_n_1_1_40961
    (concatenate S4096x4096 1
      [⟨S4096x3968, mulf q (broadcastInDim S4096x3968 ![0, 1] bcast_S4096x1_S4096x3968_0_1 scale)⟩, ⟨S4096x128, fp⟩]
      concatenates_S4096x3968_S4096x128_S4096x4096_d1)
    (broadcastInDim S4096x1 ![0] bcast_S4096_S4096x1_0
      (select (cmpi .slt cols (broadcastInDim S4096 ![] bcast_S_S4096 (constantI S_ 32 0#32)))
        (addi cols (broadcastInDim S4096 ![] bcast_S_S4096 (constantI S_ 32 4096#32))) cols))

end Cert.QLinear

end
-- ==== Proof.KernelRun.lean ====
/-
  The kernel program from start to end.

  Before the grid, the program builds the weight matrix (rounding it for the matrix unit, which leaves
  exact values as they are), flattens the activations [4, 2048, 4096] to rows [8192, 4096], and turns the
  bias into a one-row matrix [1, 4096]. The grid then leaves the flat form of those three arrays in its
  result array (the module on blocks), and the last line reshapes that array back to [4, 2048, 4096].
  By the re-indexing law the program's result is therefore the batched form of its arguments:
      out[n, s, o] = Σ_k x[n, s, k] · W[o, k] + b[o],   W the weight matrix of the module on weights.
-/
import proofs.«120158_j50414326120584_2_alg».proof.Proof.Blocks
import proofs.«120158_j50414326120584_2_alg».proof.Proof.Weights
import Idealize.ShloMosaic.Lib.StableHlo.Run

noncomputable section

namespace Cert.QLinear

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The grid's first operand: the activations flattened to rows. -/
theorem entry_rows (c : Dev nD) :
    (V m c main_v11 : S8192x4096.Idx → EReal)
      = shapeCast S8192x4096 (m ((c.tc : Thread nD τ).loc main_arg0)) shapeCasts_S4x2048x4096_S8192x4096 := by
  show StableHlo.after hostOps0 (fun b => m (c, b)) (Proc.devRef .tc main_v11) = _
  after_results
  rfl

/-- The grid's third operand: the bias as a one-row matrix. -/
theorem entry_bias (c : Dev nD) :
    (V m c main_v12 : S1x4096.Idx → EReal)
      = shapeCast S1x4096 (m ((c.tc : Thread nD τ).loc main_arg4)) shapeCasts_S4096_S1x4096 := by
  show StableHlo.after hostOps0 (fun b => m (c, b)) (Proc.devRef .tc main_v12) = _
  after_results
  rfl

/-- The grid's second operand: the weight matrix (its rounding for the matrix unit changes no exact value). -/
theorem entry_weights (c : Dev nD) :
    (V m c main_v10 : S4096x4096.Idx → EReal)
      = weights (m ((c.tc : Thread nD τ).loc main_arg1)) (m ((c.tc : Thread nD τ).loc main_arg2))
          (m ((c.tc : Thread nD τ).loc main_arg3)) (m ((c.tc : Thread nD τ).loc main_arg5)) := by
  show StableHlo.after hostOps0 (fun b => m (c, b)) (Proc.devRef .tc main_v10) = _
  after_results
  exact funext fun i => truncf_apply (ψ := .bf16)
    (weights (m ((c.tc : Thread nD τ).loc main_arg1)) (m ((c.tc : Thread nD τ).loc main_arg2))
      (m ((c.tc : Thread nD τ).loc main_arg3)) (m ((c.tc : Thread nD τ).loc main_arg5))) bitsLt_bf16_f32 i

/-- The program's result: the grid's result array reshaped back, which is the batched form of the arguments. -/
theorem result_eq (c : Dev nD) :
    Pipeline.afterTail₀ cfgs (dats m) 0 (V0 m) [hostOps1] c main_v14
      = batched (m ((c.tc : Thread nD τ).loc main_arg0))
          (weights (m ((c.tc : Thread nD τ).loc main_arg1)) (m ((c.tc : Thread nD τ).loc main_arg2))
            (m ((c.tc : Thread nD τ).loc main_arg3)) (m ((c.tc : Thread nD τ).loc main_arg5)))
          (m ((c.tc : Thread nD τ).loc main_arg4)) := by
  have harr : Pipeline.withArrays (cfgs 0).spec c (V0 m c) (fun w => (dats m 0 c).arrAt w (cfgs 0).N) (Proc.devRef .tc main_v13)
      = flat (V m c main_v11) (V m c main_v10) (V m c main_v12) :=
    (Pipeline.withArrays_arr spec0 launch0.win.arr_inj c _ _ 3).trans (final m c)
  unfold Pipeline.afterTail₀
  show StableHlo.after hostOps1 _ (Proc.devRef .tc main_v14) = _
  after_results
  rw [harr, entry_rows, entry_bias, entry_weights]
  exact unflatten_flat _ _ _ shapeCasts_S4x2048x4096_S8192x4096 shapeCasts_S4096_S1x4096 shapeCasts_S8192x4096_S4x2048x4096

/-- THE RUN of the kernel program on extended reals: every weakly fair execution terminates with the result
    at the batched form of the arguments, the arguments unchanged. -/
theorem run : θ_run defs (onTc (τ := τ) (main (F := Ideal))) ⟨m, fun _ => 0, ρ⟩ fun r => ∀ c : Dev nD,
      r.2.mem ((c.tc : Thread nD τ).loc main_v14)
        = batched (m ((c.tc : Thread nD τ).loc main_arg0))
            (weights (m ((c.tc : Thread nD τ).loc main_arg1)) (m ((c.tc : Thread nD τ).loc main_arg2))
              (m ((c.tc : Thread nD τ).loc main_arg3)) (m ((c.tc : Thread nD τ).loc main_arg5)))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v14 (Pipeline.mem_restRefs_of main_v14 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.QLinear

end
-- ==== Proof.Reference.lean ====
/-
  The reference program is the batched form.

  The reference builds the same weight matrix W by the same chain of array operations, contracts the
  activations' last axis with W's second axis — out[n, s, o] = Σ_k x[n, s, k] · W[o, k] — and adds the
  bias broadcast along the first two axes. Read entry by entry this is the batched form of its arguments,
  with no arithmetic law needed. The weight matrix is the one of the module on weights: the two chains
  of operations are the same text.
-/
import proofs.«120158_j50414326120584_2_alg».proof.Proof.Gen.ReferenceIdeal.Read
import proofs.«120158_j50414326120584_2_alg».proof.Proof.Affine
import proofs.«120158_j50414326120584_2_alg».proof.Proof.Weights

noncomputable section

namespace Cert.QLinear

open Idealize.ShloMosaic Idealize.ShloMosaic.ValueIdx
open Cert.ReferenceIdeal Cert.ReferenceIdeal.Read

/-- The reference's result, entry by entry, is the batched form over its own weight matrix. -/
theorem reference_batched (x : FVec Ideal S4x2048x4096 .f32) (q : FVec Ideal S4096x3968 .f32) (fp : FVec Ideal S4096x128 .f32)
    (scale : FVec Ideal S4096x1 .f32) (b : FVec Ideal S4096 .f32) (cols : IVec S4096 32) :
    val_main_v13 (F := Ideal) x q fp scale b cols = batched x (val_main_v9 (F := Ideal) q fp scale cols) b := by
  funext i
  obtain ⟨n, s, o, rfl⟩ : ∃ (n : Fin 4) (s : Fin 2048) (o : Fin 4096), i = ix3 n s o := ⟨i 0, i 1, i 2, eq_ix3 i⟩
  rw [val_main_v13_apply, val_main_v10_apply, val_main_v12_apply, val_main_v11_apply]
  show (∑ k : Fin 4096, x (lidx_main_v10 (ix3 n s o) k) * val_main_v9 (F := Ideal) q fp scale cols (ridx_main_v10 (ix3 n s o) k))
      + b (idx_main_v11 (idx_main_v12 (ix3 n s o))) = batchedAt x (val_main_v9 (F := Ideal) q fp scale cols) b n s o
  unfold batchedAt
  have eb : idx_main_v11 (idx_main_v12 (ix3 n s o)) = ix1 o := funext fun a => Fin.ext (by match a with | ⟨0, _⟩ => rfl)
  rw [eb]
  refine congrArg (· + b (ix1 o)) (Finset.sum_congr rfl fun k _ => ?_)
  have el : lidx_main_v10 (ix3 n s o) k = ix3 n s k :=
    funext fun a => Fin.ext (by match a with | ⟨0, _⟩ => rfl | ⟨1, _⟩ => rfl | ⟨2, _⟩ => rfl)
  have er : ridx_main_v10 (ix3 n s o) k = ix2 o k :=
    funext fun a => Fin.ext (by match a with | ⟨0, _⟩ => rfl | ⟨1, _⟩ => rfl)
  rw [el, er]

/-- The reference's weight matrix is the kernel program's: the same operations on the same arrays. -/
theorem reference_weights (q : FVec Ideal S4096x3968 .f32) (fp : FVec Ideal S4096x128 .f32)
    (scale : FVec Ideal S4096x1 .f32) (cols : IVec S4096 32) :
    val_main_v9 (F := Ideal) q fp scale cols = weights q fp scale cols := rfl

end Cert.QLinear

end
-- ==== Proof.lean ====
/- The quantized linear layer: kernel program against reference, on extended reals.

   Both programs compute  out[n, s, o] = Σ_k x[n, s, k] · W[o, k] + b[o]  over activations x : [4, 2048, 4096],
   a bias b : [4096] and the weight matrix W : [4096, 4096] that each builds first, by the same chain of array
   operations, from integer-coded weights scaled row by row, 128 full-precision columns and a table that puts
   the columns back in order (Proof/Weights).
   * The kernel program flattens x to 8192 rows, covers the 8192 × 4096 result with 16 × 16 tiles of
     512 × 256, and for each tile multiplies 512 activation rows by 256 weight rows (whole, all 4096
     columns at once) into a zero accumulator and adds the bias row (Proof/Tile: one tile entry by entry;
     Proof/Blocks: the tiles are blocks of one array and cover it; Proof/KernelRun: the operations before
     and after the grid, and the whole run). Rounding the operands for the matrix unit changes no exact value.
   * The reference contracts x's last axis with W's second axis and adds the broadcast bias
     (Proof/Reference).
   The two results are the same sums of the same products in the same order, only indexed differently
   (row r = 2048·n + s of the flattened activations is row (n, s) of x: Proof/Affine), so they are equal on
   all extended reals and the inputs' finiteness is never used. The kernel program is its own idealization
   (no operation was rewritten), so that claim is trivial; the three frames are the programs' runs. -/
import proofs.«120158_j50414326120584_2_alg».proof.Defs
import proofs.«120158_j50414326120584_2_alg».proof.Proof.Gen.Kernel
import proofs.«120158_j50414326120584_2_alg».proof.Proof.Gen.Kernel.Skeleton
import proofs.«120158_j50414326120584_2_alg».proof.Proof.Gen.Kernel.Launch
import proofs.«120158_j50414326120584_2_alg».proof.Proof.Gen.Kernel.Points
import proofs.«120158_j50414326120584_2_alg».proof.Proof.Gen.Kernel.Frame
import proofs.«120158_j50414326120584_2_alg».proof.Proof.Gen.KernelIdeal
import proofs.«120158_j50414326120584_2_alg».proof.Proof.Gen.KernelIdeal.Skeleton
import proofs.«120158_j50414326120584_2_alg».proof.Proof.Gen.KernelIdeal.Launch
import proofs.«120158_j50414326120584_2_alg».proof.Proof.Gen.KernelIdeal.Points
import proofs.«120158_j50414326120584_2_alg».proof.Proof.Gen.KernelIdeal.Frame
import proofs.«120158_j50414326120584_2_alg».proof.Proof.Gen.ReferenceIdeal
import proofs.«120158_j50414326120584_2_alg».proof.Proof.Gen.Pre_finite_inputs
import proofs.«120158_j50414326120584_2_alg».proof.Proof.Gen.ReferenceIdeal.Run
import proofs.«120158_j50414326120584_2_alg».proof.Proof.Gen.ReferenceIdeal.Read
import proofs.«120158_j50414326120584_2_alg».proof.Proof.KernelRun
import proofs.«120158_j50414326120584_2_alg».proof.Proof.Reference
import Idealize.ShloMosaic.Adequacy
import Idealize.ShloMosaic.Init

noncomputable section

namespace Cert.Proof

open Idealize.ShloMosaic Idealize.SL.Sem

/-- The kernel program as printed runs to the end and leaves its arguments as they were. -/
theorem frame_kernel : Cert.frame_Kernel := fun m ρ _ => Cert.Kernel.Gen.frame m ρ

/-- So does the same program read on extended reals. -/
theorem frame_kernel_ideal : Cert.frame_KernelIdeal := fun m ρ _ => Cert.KernelIdeal.Gen.frame m ρ

/-- The reference runs to the end and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- On extended reals the kernel program and the reference, started from the same arguments, end with the
    same result: both are the batched form  Σ_k x[n, s, k] · W[o, k] + b[o]  over the same weight matrix. -/
theorem algebraic : Cert.algebraic_KernelIdeal_ReferenceIdeal := by
  intro m ρ m' ρ' _ hagree
  refine ⟨fun c => Cert.QLinear.batched (m ((c.tc : Thread Cert.KernelIdeal.nD Cert.KernelIdeal.τ).loc Cert.KernelIdeal.main_arg0))
      (Cert.QLinear.weights (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg5)))
      (m ((c.tc : Thread Cert.KernelIdeal.nD Cert.KernelIdeal.τ).loc Cert.KernelIdeal.main_arg4)),
    Cert.QLinear.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  refine (Cert.ReferenceIdeal.Read.val_main_v13_eq (F := Ideal) _ _ _ _ _ _).trans ?_
  rw [Cert.QLinear.reference_batched, Cert.QLinear.reference_weights]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
